-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072x16 : Shape := ⟨2, ![131072, 16]⟩
abbrev S100x1024 : Shape := ⟨2, ![100, 1024]⟩
abbrev S100x16 : Shape := ⟨2, ![100, 16]⟩
abbrev S100x1 : Shape := ⟨2, ![100, 1]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S131072x16 : S_.BroadcastsInDim S131072x16 (![] : Fin 0 → Fin S131072x16.rank)
  reducesTo_S131072x16_S_d0_1 : S131072x16.ReducesTo [0, 1] S_
  bcast_S_S100x1024 : S_.BroadcastsInDim S100x1024 (![] : Fin 0 → Fin S100x1024.rank)
  reducesTo_S100x1024_S_d0_1 : S100x1024.ReducesTo [0, 1] S_
  bcast_S_S100x16 : S_.BroadcastsInDim S100x16 (![] : Fin 0 → Fin S100x16.rank)
  reducesTo_S100x16_S_d0_1 : S100x16.ReducesTo [0, 1] S_
  bcast_S_S100x1 : S_.BroadcastsInDim S100x1 (![] : Fin 0 → Fin S100x1.rank)
  reducesTo_S100x1_S_d0_1 : S100x1.ReducesTo [0, 1] S_

variable [Facts]

def fn_part1 {F : FTy → Type} [FloatOps F] (main_arg4 : FVec F S100x16 .f32) (main_arg5 : FVec F S100x1 .f32) (main_v13 : IVec S_ 1) (main_v16 : IVec S100x1024 1) : IVec S_ 1 :=
  let main_c_5 : IVec S_ 1 := constantI S_ 1 1#1
  let main_v17 : IVec S_ 1 := (fun x v => Host.reduce IntOp.andi x v reducesTo_S100x1024_S_d0_1 h_S_) main_v16 main_c_5
  let main_v18 : IVec S_ 1 := andi main_v13 main_v17
  let main_v19 : FVec F S100x16 .f32 := Host.absf main_arg4
  let main_cst_6 : FVec F S_ .f32 := constant S_ .f32 0x7F800000#32
  let main_v20 : FVec F S100x16 .f32 := broadcastInDim S100x16 ![] bcast_S_S100x16 main_cst_6
  let main_v21 : IVec S100x16 1 := cmpf .olt main_v19 main_v20
  let main_c_7 : IVec S_ 1 := constantI S_ 1 1#1
  let main_v22 : IVec S_ 1 := (fun x v => Host.reduce IntOp.andi x v reducesTo_S100x16_S_d0_1 h_S_) main_v21 main_c_7
  let main_v23 : IVec S_ 1 := andi main_v18 main_v22
  let main_v24 : FVec F S100x1 .f32 := Host.absf main_arg5
  let main_cst_8 : FVec F S_ .f32 := constant S_ .f32 0x7F800000#32
  let main_v25 : FVec F S100x1 .f32 := broadcastInDim S100x1 ![] bcast_S_S100x1 main_cst_8
  let main_v26 : IVec S100x1 1 := cmpf .olt main_v24 main_v25
  let main_c_9 : IVec S_ 1 := constantI S_ 1 1#1
  let main_v27 : IVec S_ 1 := (fun x v => Host.reduce IntOp.andi x v reducesTo_S100x1_S_d0_1 h_S_) main_v26 main_c_9
  let main_v28 : IVec S_ 1 := andi main_v23 main_v27
  main_v28

def fn {F : FTy → Type} [FloatOps F] (main_arg0 : FVec F S131072x1024 .f32) (main_arg1 : FVec F S131072x16 .f32) (main_arg2 : FVec F S100x1024 .f32) (main_arg3 : FVec F S100x1024 .f32) (main_arg4 : FVec F S100x16 .f32) (main_arg5 : FVec F S100x1 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S131072x16 .f32 := Host.absf main_arg1
  let main_cst_0 : FVec F S_ .f32 := constant S_ .f32 0x7F800000#32
  let main_v5 : FVec F S131072x16 .f32 := broadcastInDim S131072x16 ![] bcast_S_S131072x16 main_cst_0
  let main_v6 : IVec S131072x16 1 := cmpf .olt main_v4 main_v5
  let main_c_1 : IVec S_ 1 := constantI S_ 1 1#1
  let main_v7 : IVec S_ 1 := (fun x v => Host.reduce IntOp.andi x v reducesTo_S131072x16_S_d0_1 h_S_) main_v6 main_c_1
  let main_v8 : IVec S_ 1 := andi main_v3 main_v7
  let main_v9 : FVec F S100x1024 .f32 := Host.absf main_arg2
  let main_cst_2 : FVec F S_ .f32 := constant S_ .f32 0x7F800000#32
  let main_v10 : FVec F S100x1024 .f32 := broadcastInDim S100x1024 ![] bcast_S_S100x1024 main_cst_2
  let main_v11 : IVec S100x1024 1 := cmpf .olt main_v9 main_v10
  let main_c_3 : IVec S_ 1 := constantI S_ 1 1#1
  let main_v12 : IVec S_ 1 := (fun x v => Host.reduce IntOp.andi x v reducesTo_S100x1024_S_d0_1 h_S_) main_v11 main_c_3
  let main_v13 : IVec S_ 1 := andi main_v8 main_v12
  let main_v14 : FVec F S100x1024 .f32 := Host.absf main_arg3
  let main_cst_4 : FVec F S_ .f32 := constant S_ .f32 0x7F800000#32
  let main_v15 : FVec F S100x1024 .f32 := broadcastInDim S100x1024 ![] bcast_S_S100x1024 main_cst_4
  let main_v16 : IVec S100x1024 1 := cmpf .olt main_v14 main_v15
  fn_part1 (F := F) main_arg4 main_arg5 main_v13 main_v16
-- ==== Kernel.lean ====
abbrev S131072x1024 : Shape := ⟨2, ![131072, 1024]⟩
abbrev S131072x16 : Shape := ⟨2, ![131072, 16]⟩
abbrev S100x1024 : Shape := ⟨2, ![100, 1024]⟩
abbrev S100x16 : Shape := ⟨2, ![100, 16]⟩
abbrev S100x1 : Shape := ⟨2, ![100, 1]⟩
abbrev S1024x100 : Shape := ⟨2, ![1024, 100]⟩
abbrev S16x100 : Shape := ⟨2, ![16, 100]⟩
abbrev S100 : Shape := ⟨1, ![100]⟩
abbrev S_ : Shape := ⟨0, ![]⟩
abbrev S1x100 : Shape := ⟨2, ![1, 100]⟩
abbrev S1024x1024 : Shape := ⟨2, ![1024, 1024]⟩
abbrev S1024x16 : Shape := ⟨2, ![1024, 16]⟩
abbrev S1024 : Shape := ⟨1, ![1024]⟩
abbrev S1024x1 : Shape := ⟨2, ![1024, 1]⟩

abbrev nBuf : Space → Nat
  | .hbm => 21
  | .vmem => 10
  | .smem => 0
  | _ => 0

abbrev bufTy : (tb : Table) → Fin (tcTables nBuf tb) → BufTy
  | .hbm, ⟨0, _⟩ => ⟨S131072x1024, .f32⟩
  | .hbm, ⟨1, _⟩ => ⟨S131072x16, .f32⟩
  | .hbm, ⟨2, _⟩ => ⟨S100x1024, .f32⟩
  | .hbm, ⟨3, _⟩ => ⟨S100x1024, .f32⟩
  | .hbm, ⟨4, _⟩ => ⟨S100x16, .f32⟩
  | .hbm, ⟨5, _⟩ => ⟨S100x1, .f32⟩
  | .hbm, ⟨6, _⟩ => ⟨S1024x100, .f32⟩
  | .hbm, ⟨7, _⟩ => ⟨S1024x100, .bf16⟩
  | .hbm, ⟨8, _⟩ => ⟨S16x100, .f32⟩
  | .hbm, ⟨9, _⟩ => ⟨S16x100, .bf16⟩
  | .hbm, ⟨10, _⟩ => ⟨S100x1024, .bf16⟩
  | .hbm, ⟨11, _⟩ => ⟨S100, .f32⟩
  | .hbm, ⟨12, _⟩ => ⟨S_, .f32⟩
  | .hbm, ⟨13, _⟩ => ⟨S100, .f32⟩
  | .hbm, ⟨14, _⟩ => ⟨S100, .f32⟩
  | .hbm, ⟨15, _⟩ => ⟨S_, .f32⟩
  | .hbm, ⟨16, _⟩ => ⟨S100, .f32⟩
  | .hbm, ⟨17, _⟩ => ⟨S100, .f32⟩
  | .hbm, ⟨18, _⟩ => ⟨S100, .f32⟩
  | .hbm, ⟨19, _⟩ => ⟨S1x100, .f32⟩
  | .hbm, ⟨20, _⟩ => ⟨S131072x1024, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S1024x100, .bf16⟩
  | .local _ .vmem, ⟨5, _⟩ => ⟨S100x1024, .bf16⟩
  | .local _ .vmem, ⟨6, _⟩ => ⟨S16x100, .bf16⟩
  | .local _ .vmem, ⟨7, _⟩ => ⟨S1x100, .f32⟩
  | .local _ .vmem, ⟨8, _⟩ => ⟨S1024x1024, .f32⟩
  | .local _ .vmem, ⟨9, _⟩ => ⟨S1024x1024, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x100 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x100 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S100x1024_S1024x100_1_0 : S100x1024.Transposes [1, 0] S1024x100
  bitsLt_bf16_f32 : FTy.bits .bf16 < FTy.bits .f32
  transposes_S100x16_S16x100_1_0 : S100x16.Transposes [1, 0] S16x100
  shapeCasts_S100x1_S100 : S100x1.ShapeCasts S100
  bcast_S_S100 : S_.BroadcastsInDim S100 (![] : Fin 0 → Fin S100.rank)
  shapeCasts_S100_S1x100 : S100.ShapeCasts S1x100
  inb_S1024x1024_S1024x1024_0_0 : ∀ a, (![0, 0] : Fin 2 → Nat) a + S1024x1024.size a ≤ S1024x1024.size a
  h_S1024x1024 : 0 < S1024x1024.numel
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  inb_S1024x16_S1024x16_0_0 : ∀ a, (![0, 0] : Fin 2 → Nat) a + S1024x16.size a ≤ S1024x16.size a
  h_S1024x16 : 0 < S1024x16.numel
  inb_S16x100_S16x100_0_0 : ∀ a, (![0, 0] : Fin 2 → Nat) a + S16x100.size a ≤ S16x100.size a
  h_S16x100 : 0 < S16x100.numel
  shapeCasts_S16x100_S16x100 : S16x100.ShapeCasts S16x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S1024x100 : S1x100.Broadcasts S1024x100
  reduces_S1024x100_S1024 : S1024x100.Reduces [1] S1024
  shapeCasts_S1024_S1024x1 : S1024.ShapeCasts S1024x1
  broadcasts_S1024x1_S1024x100 : S1024x1.Broadcasts S1024x100
  inb_S100x1024_S100x1024_0_0 : ∀ a, (![0, 0] : Fin 2 → Nat) a + S100x1024.size a ≤ S100x1024.size a
  h_S100x1024 : 0 < S100x1024.numel
  shapeCasts_S100x1024_S100x1024 : S100x1024.ShapeCasts S100x1024
  dot_S1024x1024_S1024x100_S1024x100_1_0_0_1_n_n_wf : DotDims.WF S1024x1024 S1024x100 S1024x100 [1] [0] [0] [1] [] []
  dot_S1024x16_S16x100_S1024x100_1_0_0_1_n_n_wf : DotDims.WF S1024x16 S16x100 S1024x100 [1] [0] [0] [1] [] []
  dot_S1024x100_S100x1024_S1024x1024_1_0_0_1_n_n_wf : DotDims.WF S1024x100 S100x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S131072x1024.size a
  hwx0_0 : ∀ i : grid0.Coords, EltTy.bits .f32 = 32 ∨ (Rect.block (s := S131072x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S131072x16.size a
  hwx0_1 : ∀ i : grid0.Coords, EltTy.bits .f32 = 32 ∨ (Rect.block (s := S131072x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x100.size a ≤ S1024x100.size a
  hwx0_2 : ∀ i : grid0.Coords, EltTy.bits .bf16 = 32 ∨ (Rect.block (s := S1024x100) S1024x100.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x1024.size a ≤ S100x1024.size a
  hwx0_3 : ∀ i : grid0.Coords, EltTy.bits .bf16 = 32 ∨ (Rect.block (s := S100x1024) S100x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x100.size a ≤ S16x100.size a
  hwx0_4 : ∀ i : grid0.Coords, EltTy.bits .bf16 = 32 ∨ (Rect.block (s := S16x100) S16x100.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S131072x1024.size a
  hwx0_6 : ∀ i : grid0.Coords, EltTy.bits .f32 = 32 ∨ (Rect.block (s := S131072x1024) S1024x1024.size (cc0_transform_6 i) (hinb0_6 i)).WholeWords (EltTy.packing .f32)

variable [Facts₀]

def dot_S1024x1024_S1024x100_S1024x100_1_0_0_1_n_n : DotDims S1024x1024 S1024x100 S1024x100 where
  lhsContracting := [1]
  rhsContracting := [0]
  lhsNonContracting := [0]
  rhsNonContracting := [1]
  lhsBatch := []
  rhsBatch := []
  wf := dot_S1024x1024_S1024x100_S1024x100_1_0_0_1_n_n_wf
def dot_S1024x16_S16x100_S1024x100_1_0_0_1_n_n : DotDims S1024x16 S16x100 S1024x100 where
  lhsContracting := [1]
  rhsContracting := [0]
  lhsNonContracting := [0]
  rhsNonContracting := [1]
  lhsBatch := []
  rhsBatch := []
  wf := dot_S1024x16_S16x100_S1024x100_1_0_0_1_n_n_wf
def dot_S1024x100_S100x1024_S1024x1024_1_0_0_1_n_n : DotDims S1024x100 S100x1024 S1024x1024 where
  lhsContracting := [1]
  rhsContracting := [0]
  lhsNonContracting := [0]
  rhsNonContracting := [1]
  lhsBatch := []
  rhsBatch := []
  wf := dot_S1024x100_S100x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S100x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072x16 : Shape := ⟨2, ![131072, 16]⟩
abbrev S100x1024 : Shape := ⟨2, ![100, 1024]⟩
abbrev S100x16 : Shape := ⟨2, ![100, 16]⟩
abbrev S100x1 : Shape := ⟨2, ![100, 1]⟩
abbrev S131072x100 : Shape := ⟨2, ![131072, 100]⟩
abbrev S_ : Shape := ⟨0, ![]⟩
abbrev S100 : Shape := ⟨1, ![100]⟩
abbrev S1x100 : Shape := ⟨2, ![1, 100]⟩
abbrev S131072 : Shape := ⟨1, ![131072]⟩
abbrev S131072x1 : Shape := ⟨2, ![131072, 1]⟩

abbrev nBuf : Space → Nat
  | .hbm => 38
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072x16, .f32⟩
  | .hbm, ⟨2, _⟩ => ⟨S100x1024, .f32⟩
  | .hbm, ⟨3, _⟩ => ⟨S100x1024, .f32⟩
  | .hbm, ⟨4, _⟩ => ⟨S100x16, .f32⟩
  | .hbm, ⟨5, _⟩ => ⟨S100x1, .f32⟩
  | .hbm, ⟨6, _⟩ => ⟨S131072x100, .f32⟩
  | .hbm, ⟨7, _⟩ => ⟨S131072x100, .f32⟩
  | .hbm, ⟨8, _⟩ => ⟨S_, .f32⟩
  | .hbm, ⟨9, _⟩ => ⟨S131072x100, .f32⟩
  | .hbm, ⟨10, _⟩ => ⟨S131072x100, .f32⟩
  | .hbm, ⟨11, _⟩ => ⟨S131072x100, .f32⟩
  | .hbm, ⟨12, _⟩ => ⟨S100, .f32⟩
  | .hbm, ⟨13, _⟩ => ⟨S_, .f32⟩
  | .hbm, ⟨14, _⟩ => ⟨S100, .f32⟩
  | .hbm, ⟨15, _⟩ => ⟨S100, .f32⟩
  | .hbm, ⟨16, _⟩ => ⟨S_, .f32⟩
  | .hbm, ⟨17, _⟩ => ⟨S100, .f32⟩
  | .hbm, ⟨18, _⟩ => ⟨S100, .f32⟩
  | .hbm, ⟨19, _⟩ => ⟨S100, .f32⟩
  | .hbm, ⟨20, _⟩ => ⟨S1x100, .f32⟩
  | .hbm, ⟨21, _⟩ => ⟨S131072x100, .f32⟩
  | .hbm, ⟨22, _⟩ => ⟨S131072x100, .f32⟩
  | .hbm, ⟨23, _⟩ => ⟨S_, .f32⟩
  | .hbm, ⟨24, _⟩ => ⟨S131072, .f32⟩
  | .hbm, ⟨25, _⟩ => ⟨S_, .f32⟩
  | .hbm, ⟨26, _⟩ => ⟨S131072, .f32⟩
  | .hbm, ⟨27, _⟩ => ⟨S131072, .f32⟩
  | .hbm, ⟨28, _⟩ => ⟨S131072x1, .f32⟩
  | .hbm, ⟨29, _⟩ => ⟨S131072x100, .f32⟩
  | .hbm, ⟨30, _⟩ => ⟨S131072x100, .f32⟩
  | .hbm, ⟨31, _⟩ => ⟨S131072x100, .f32⟩
  | .hbm, ⟨32, _⟩ => ⟨S_, .f32⟩
  | .hbm, ⟨33, _⟩ => ⟨S131072, .f32⟩
  | .hbm, ⟨34, _⟩ => ⟨S131072x1, .f32⟩
  | .hbm, ⟨35, _⟩ => ⟨S131072x100, .f32⟩
  | .hbm, ⟨36, _⟩ => ⟨S131072x100, .f32⟩
  | .hbm, ⟨37, _⟩ => ⟨S131072x1024, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S131072x100 : S_.BroadcastsInDim S131072x100 (![] : Fin 0 → Fin S131072x100.rank)
  shapeCasts_S100x1_S100 : S100x1.ShapeCasts S100
  bcast_S_S100 : S_.BroadcastsInDim S100 (![] : Fin 0 → Fin S100.rank)
  bcast_S100_S1x100_1 : S100.BroadcastsInDim S1x100 (![1] : Fin 1 → Fin S1x100.rank)
  bcast_S1x100_S131072x100_0_1 : S1x100.BroadcastsInDim S131072x100 (![0, 1] : Fin 2 → Fin S131072x100.rank)
  reducesTo_S131072x100_S131072_d1 : S131072x100.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x100_0_1 : S131072x1.BroadcastsInDim S131072x100 (![0, 1] : Fin 2 → Fin S131072x100.rank)
  dot_S131072x1024_S100x1024_S131072x100_1_1_0_0_n_n_wf : DotDims.WF S131072x1024 S100x1024 S131072x100 [1] [1] [0] [0] [] []
  dot_S131072x16_S100x16_S131072x100_1_1_0_0_n_n_wf : DotDims.WF S131072x16 S100x16 S131072x100 [1] [1] [0] [0] [] []
  dot_S131072x100_S100x1024_S131072x1024_1_0_0_1_n_n_wf : DotDims.WF S131072x100 S100x1024 S131072x1024 [1] [0] [0] [1] [] []

variable [Facts₀]

def dot_S131072x1024_S100x1024_S131072x100_1_1_0_0_n_n : DotDims S131072x1024 S100x1024 S131072x100 where
  lhsContracting := [1]
  rhsContracting := [1]
  lhsNonContracting := [0]
  rhsNonContracting := [0]
  lhsBatch := []
  rhsBatch := []
  wf := dot_S131072x1024_S100x1024_S131072x100_1_1_0_0_n_n_wf
def dot_S131072x16_S100x16_S131072x100_1_1_0_0_n_n : DotDims S131072x16 S100x16 S131072x100 where
  lhsContracting := [1]
  rhsContracting := [1]
  lhsNonContracting := [0]
  rhsNonContracting := [0]
  lhsBatch := []
  rhsBatch := []
  wf := dot_S131072x16_S100x16_S131072x100_1_1_0_0_n_n_wf
def dot_S131072x100_S100x1024_S131072x1024_1_0_0_1_n_n : DotDims S131072x100 S100x1024 S131072x1024 where
  lhsContracting := [1]
  rhsContracting := [0]
  lhsNonContracting := [0]
  rhsNonContracting := [1]
  lhsBatch := []
  rhsBatch := []
  wf := dot_S131072x100_S100x1024_S131072x1024_1_0_0_1_n_n_wf

class Facts : Prop extends Facts₀ where

variable [Facts]
-- ==== Proof.Spec.lean ====
/-
  Attention over a small memory, row by row, on the extended reals.

  A query row `q` (1024 entries) with its context row `cx` (16 entries) is scored against each of the 100 memory
  slots: the inner product with the slot's key, plus one half of the inner product of the context with the slot's
  context, plus the slot's time-decay bias.  The scores are turned into weights by a softmax taken in the stable
  way (the row's maximum is subtracted before exponentiating), and the result row is the weighted sum of the slots'
  values.  Everything below is a definition over finite index types; no program is mentioned.
-/
import Idealize.ShloMosaic.PureOps.Ideal
import Idealize.ShloMosaic.Lib.ValueIdx

noncomputable section

open scoped BigOperators

namespace Cert.MemAttn

open Idealize.ShloMosaic Idealize.ShloMosaic.ValueIdx

/-- The time-decay bias of slot `j`: `exp (w · (0 − ts j))`, with `w` the single-precision number nearest to −0.1 and
    `ts j` the slot's timestamp. -/
def decay (ts : Fin 100 → EReal) (j : Fin 100) : EReal :=
  Ideal.exp ((Ideal.ofBits .f32 0xBDCCCCCD#32 : EReal) * ((Ideal.ofBits .f32 0x00000000#32 : EReal) - ts j))

/-- The score of a row against slot `j`: `(q · mk j + ½ (cx · mc j)) + td j`. -/
def score (q : Fin 1024 → EReal) (cx : Fin 16 → EReal) (mk : Fin 100 → Fin 1024 → EReal) (mc : Fin 100 → Fin 16 → EReal)
    (td : Fin 100 → EReal) (j : Fin 100) : EReal :=
  ((∑ k : Fin 1024, q k * mk j k) + (Ideal.ofBits .f32 0x3F000000#32 : EReal) * ∑ k : Fin 16, cx k * mc j k) + td j

/-- The largest of a row's scores (the maximum is folded from −∞, written as its single-precision pattern). -/
def rowMax (s : Fin 100 → EReal) : EReal :=
  (Finset.univ : Finset (Fin 100)).fold max (Ideal.ofBits .f32 0xFF800000#32 : EReal) s

/-- A score exponentiated after the row's maximum is subtracted. -/
def shifted (s : Fin 100 → EReal) (j : Fin 100) : EReal := Ideal.exp (s j - rowMax s)

/-- The softmax weight of slot `j`: its shifted exponential divided by the row's sum of them. -/
def weight (s : Fin 100 → EReal) (j : Fin 100) : EReal := Ideal.div (shifted s j) (∑ l : Fin 100, shifted s l)

/-- The weighted sum of the slots' values at output column `d`. -/
def mix (w : Fin 100 → EReal) (mv : Fin 100 → Fin 1024 → EReal) (d : Fin 1024) : EReal := ∑ j : Fin 100, w j * mv j d

/-- One result row from the row's query and context, the memory tables and the biases already computed. -/
def attendWith (q : Fin 1024 → EReal) (cx : Fin 16 → EReal) (mk mv : Fin 100 → Fin 1024 → EReal)
    (mc : Fin 100 → Fin 16 → EReal) (td : Fin 100 → EReal) (d : Fin 1024) : EReal :=
  mix (weight (score q cx mk mc td)) mv d

/-- The whole result: entry `(b, d)` is row `b`'s attention output at column `d`, the biases computed from the
    timestamps. -/
def result (Q : (⟨2, ![131072, 1024]⟩ : Shape).Idx → EReal) (CX : (⟨2, ![131072, 16]⟩ : Shape).Idx → EReal)
    (MK MV : (⟨2, ![100, 1024]⟩ : Shape).Idx → EReal) (MC : (⟨2, ![100, 16]⟩ : Shape).Idx → EReal)
    (TS : (⟨2, ![100, 1]⟩ : Shape).Idx → EReal) (b : Fin 131072) (d : Fin 1024) : EReal :=
  attendWith (fun k => Q (ix2 b k)) (fun k => CX (ix2 b k)) (fun j k => MK (ix2 j k)) (fun j k => MV (ix2 j k))
    (fun j k => MC (ix2 j k)) (decay fun j => TS (ix2 j (0 : Fin 1))) d

/-- The same as an array: the entry at an index is `result` at the index's two coordinates. -/
def resultArray (Q : (⟨2, ![131072, 1024]⟩ : Shape).Idx → EReal) (CX : (⟨2, ![131072, 16]⟩ : Shape).Idx → EReal)
    (MK MV : (⟨2, ![100, 1024]⟩ : Shape).Idx → EReal) (MC : (⟨2, ![100, 16]⟩ : Shape).Idx → EReal)
    (TS : (⟨2, ![100, 1]⟩ : Shape).Idx → EReal) : (⟨2, ![131072, 1024]⟩ : Shape).Idx → EReal :=
  fun i => result Q CX MK MV MC TS (i 0) (i 1)

/-- The maximum folded from a starting value is at least that value, so taking the maximum with it again changes
    nothing. -/
theorem max_fold_self {ι : Type} (s : Finset ι) (b : EReal) (f : ι → EReal) : max b (s.fold max b f) = s.fold max b f :=
  max_eq_right ((Finset.le_fold_max b).mpr (Or.inl le_rfl))

end Cert.MemAttn

end
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.Payload.lean ====
/-
  What the kernel body stores for a block of 1024 rows, read at one entry.

  The body's stored value is one pure term of the six blocks it loads: the query rows, the context rows, the transposed
  key table, the value table, the transposed slot-context table and the bias row.  Here that term is read at an entry
  `(r, d)`: the three matrix products become sums over the contracted coordinate, the row maximum and the row sum
  (taken over the 100 slots and broadcast back along the row) become a fold of `max` and a finite sum, and what is
  left is, operation for operation, the row-wise attention of the specification applied to row `r` of the blocks.
  No algebraic law is used: the two sides are the same expression.
-/
import proofs.«145334_j27797028339950_2_alg».proof.Proof.Gen.KernelIdeal.Skeleton
import proofs.«145334_j27797028339950_2_alg».proof.Proof.Spec
import proofs.«145334_j27797028339950_2_alg».proof.Proof.LibHostMaxForms
import proofs.«145334_j27797028339950_2_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.ValueLayout

namespace Cert.KernelIdeal.Hand

open Cert.KernelIdeal Cert.KernelIdeal.Gen

/-! ## The three matrix products, each read at an entry

Into a zero accumulator a matrix product's entry `(p, c)` is the sum over the contracted coordinate `k` of the
left operand at `(p, k)` times the right operand at `(k, c)`. -/

/-- Queries [1024,1024] times transposed keys [1024,100]: the operand indices at an output entry and a contraction position. -/
theorem keyDot_lhs0 (i : S1024x100.Idx) (q : dot_S1024x1024_S1024x100_S1024x100_1_0_0_1_n_n.contr.Idx) : (dot_S1024x1024_S1024x100_S1024x100_1_0_0_1_n_n.lhsIdx i q 0).val = (i 0).val := by
  unfold DotDims.lhsIdx
  rw [dif_neg (show ¬(0 : Fin S1024x1024.rank) ∈ dot_S1024x1024_S1024x100_S1024x100_1_0_0_1_n_n.lhsBatch by decide), dif_pos (show (0 : Fin S1024x1024.rank) ∈ dot_S1024x1024_S1024x100_S1024x100_1_0_0_1_n_n.lhsNonContracting by decide)]
  rfl
theorem keyDot_lhs1 (i : S1024x100.Idx) (q : dot_S1024x1024_S1024x100_S1024x100_1_0_0_1_n_n.contr.Idx) : (dot_S1024x1024_S1024x100_S1024x100_1_0_0_1_n_n.lhsIdx i q 1).val = (q ⟨0, by decide⟩).val :=
  dot_S1024x1024_S1024x100_S1024x100_1_0_0_1_n_n.lhsIdx_val_of_single rfl i q
theorem keyDot_rhs0 (i : S1024x100.Idx) (q : dot_S1024x1024_S1024x100_S1024x100_1_0_0_1_n_n.contr.Idx) : (dot_S1024x1024_S1024x100_S1024x100_1_0_0_1_n_n.rhsIdx i q 0).val = (q ⟨0, by decide⟩).val :=
  dot_S1024x1024_S1024x100_S1024x100_1_0_0_1_n_n.rhsIdx_val_of_single rfl i q
theorem keyDot_rhs1 (i : S1024x100.Idx) (q : dot_S1024x1024_S1024x100_S1024x100_1_0_0_1_n_n.contr.Idx) : (dot_S1024x1024_S1024x100_S1024x100_1_0_0_1_n_n.rhsIdx i q 1).val = (i 1).val := by
  unfold DotDims.rhsIdx
  rw [dif_neg (show ¬(1 : Fin S1024x100.rank) ∈ dot_S1024x1024_S1024x100_S1024x100_1_0_0_1_n_n.rhsBatch by decide), dif_pos (show (1 : Fin S1024x100.rank) ∈ dot_S1024x1024_S1024x100_S1024x100_1_0_0_1_n_n.rhsNonContracting by decide)]
  rfl
theorem keyDot_apply {φ₁ φ₂ : FTy} (l : FVec Ideal S1024x1024 φ₁) (r : FVec Ideal S1024x100 φ₂) (p : Fin 1024) (c : Fin 100) :
    matmul dot_S1024x1024_S1024x100_S1024x100_1_0_0_1_n_n none l r (constant (F := Ideal) S1024x100 .f32 0x00000000#32) (ix2 p c)
      = ∑ k : Fin 1024, l (ix2 p k) * r (ix2 k c) := by
  simp only [matmul]
  rw [Ideal.matmul_constant_zero_apply, ← Equiv.sum_comp (contrEquiv1 dot_S1024x1024_S1024x100_S1024x100_1_0_0_1_n_n 1024 rfl rfl).symm]
  refine Finset.sum_congr rfl fun k _ => ?_
  have hk := contrEquiv1_symm_val dot_S1024x1024_S1024x100_S1024x100_1_0_0_1_n_n 1024 rfl rfl k
  have el : dot_S1024x1024_S1024x100_S1024x100_1_0_0_1_n_n.lhsIdx (ix2 p c) ((contrEquiv1 dot_S1024x1024_S1024x100_S1024x100_1_0_0_1_n_n 1024 rfl rfl).symm k) = ix2 p k := funext fun a => Fin.ext (by
    match a with
    | ⟨0, _⟩ => exact keyDot_lhs0 _ _
    | ⟨1, _⟩ => exact (keyDot_lhs1 _ _).trans hk)
  have er : dot_S1024x1024_S1024x100_S1024x100_1_0_0_1_n_n.rhsIdx (ix2 p c) ((contrEquiv1 dot_S1024x1024_S1024x100_S1024x100_1_0_0_1_n_n 1024 rfl rfl).symm k) = ix2 k c := funext fun a => Fin.ext (by
    match a with
    | ⟨0, _⟩ => exact (keyDot_rhs0 _ _).trans hk
    | ⟨1, _⟩ => exact keyDot_rhs1 _ _)
  rw [el, er]

/-- Contexts [1024,16] times transposed slot contexts [16,100]. -/
theorem ctxDot_lhs0 (i : S1024x100.Idx) (q : dot_S1024x16_S16x100_S1024x100_1_0_0_1_n_n.contr.Idx) : (dot_S1024x16_S16x100_S1024x100_1_0_0_1_n_n.lhsIdx i q 0).val = (i 0).val := by
  unfold DotDims.lhsIdx
  rw [dif_neg (show ¬(0 : Fin S1024x16.rank) ∈ dot_S1024x16_S16x100_S1024x100_1_0_0_1_n_n.lhsBatch by decide), dif_pos (show (0 : Fin S1024x16.rank) ∈ dot_S1024x16_S16x100_S1024x100_1_0_0_1_n_n.lhsNonContracting by decide)]
  rfl
theorem ctxDot_lhs1 (i : S1024x100.Idx) (q : dot_S1024x16_S16x100_S1024x100_1_0_0_1_n_n.contr.Idx) : (dot_S1024x16_S16x100_S1024x100_1_0_0_1_n_n.lhsIdx i q 1).val = (q ⟨0, by decide⟩).val :=
  dot_S1024x16_S16x100_S1024x100_1_0_0_1_n_n.lhsIdx_val_of_single rfl i q
theorem ctxDot_rhs0 (i : S1024x100.Idx) (q : dot_S1024x16_S16x100_S1024x100_1_0_0_1_n_n.contr.Idx) : (dot_S1024x16_S16x100_S1024x100_1_0_0_1_n_n.rhsIdx i q 0).val = (q ⟨0, by decide⟩).val :=
  dot_S1024x16_S16x100_S1024x100_1_0_0_1_n_n.rhsIdx_val_of_single rfl i q
theorem ctxDot_rhs1 (i : S1024x100.Idx) (q : dot_S1024x16_S16x100_S1024x100_1_0_0_1_n_n.contr.Idx) : (dot_S1024x16_S16x100_S1024x100_1_0_0_1_n_n.rhsIdx i q 1).val = (i 1).val := by
  unfold DotDims.rhsIdx
  rw [dif_neg (show ¬(1 : Fin S16x100.rank) ∈ dot_S1024x16_S16x100_S1024x100_1_0_0_1_n_n.rhsBatch by decide), dif_pos (show (1 : Fin S16x100.rank) ∈ dot_S1024x16_S16x100_S1024x100_1_0_0_1_n_n.rhsNonContracting by decide)]
  rfl
theorem ctxDot_apply {φ₁ φ₂ : FTy} (l : FVec Ideal S1024x16 φ₁) (r : FVec Ideal S16x100 φ₂) (p : Fin 1024) (c : Fin 100) :
    matmul dot_S1024x16_S16x100_S1024x100_1_0_0_1_n_n none l r (constant (F := Ideal) S1024x100 .f32 0x00000000#32) (ix2 p c)
      = ∑ k : Fin 16, l (ix2 p k) * r (ix2 k c) := by
  simp only [matmul]
  rw [Ideal.matmul_constant_zero_apply, ← Equiv.sum_comp (contrEquiv1 dot_S1024x16_S16x100_S1024x100_1_0_0_1_n_n 16 rfl rfl).symm]
  refine Finset.sum_congr rfl fun k _ => ?_
  have hk := contrEquiv1_symm_val dot_S1024x16_S16x100_S1024x100_1_0_0_1_n_n 16 rfl rfl k
  have el : dot_S1024x16_S16x100_S1024x100_1_0_0_1_n_n.lhsIdx (ix2 p c) ((contrEquiv1 dot_S1024x16_S16x100_S1024x100_1_0_0_1_n_n 16 rfl rfl).symm k) = ix2 p k := funext fun a => Fin.ext (by
    match a with
    | ⟨0, _⟩ => exact ctxDot_lhs0 _ _
    | ⟨1, _⟩ => exact (ctxDot_lhs1 _ _).trans hk)
  have er : dot_S1024x16_S16x100_S1024x100_1_0_0_1_n_n.rhsIdx (ix2 p c) ((contrEquiv1 dot_S1024x16_S16x100_S1024x100_1_0_0_1_n_n 16 rfl rfl).symm k) = ix2 k c := funext fun a => Fin.ext (by
    match a with
    | ⟨0, _⟩ => exact (ctxDot_rhs0 _ _).trans hk
    | ⟨1, _⟩ => exact ctxDot_rhs1 _ _)
  rw [el, er]

/-- Weights [1024,100] times slot values [100,1024]. -/
theorem valDot_lhs0 (i : S1024x1024.Idx) (q : dot_S1024x100_S100x1024_S1024x1024_1_0_0_1_n_n.contr.Idx) : (dot_S1024x100_S100x1024_S1024x1024_1_0_0_1_n_n.lhsIdx i q 0).val = (i 0).val := by
  unfold DotDims.lhsIdx
  rw [dif_neg (show ¬(0 : Fin S1024x100.rank) ∈ dot_S1024x100_S100x1024_S1024x1024_1_0_0_1_n_n.lhsBatch by decide), dif_pos (show (0 : Fin S1024x100.rank) ∈ dot_S1024x100_S100x1024_S1024x1024_1_0_0_1_n_n.lhsNonContracting by decide)]
  rfl
theorem valDot_lhs1 (i : S1024x1024.Idx) (q : dot_S1024x100_S100x1024_S1024x1024_1_0_0_1_n_n.contr.Idx) : (dot_S1024x100_S100x1024_S1024x1024_1_0_0_1_n_n.lhsIdx i q 1).val = (q ⟨0, by decide⟩).val :=
  dot_S1024x100_S100x1024_S1024x1024_1_0_0_1_n_n.lhsIdx_val_of_single rfl i q
theorem valDot_rhs0 (i : S1024x1024.Idx) (q : dot_S1024x100_S100x1024_S1024x1024_1_0_0_1_n_n.contr.Idx) : (dot_S1024x100_S100x1024_S1024x1024_1_0_0_1_n_n.rhsIdx i q 0).val = (q ⟨0, by decide⟩).val :=
  dot_S1024x100_S100x1024_S1024x1024_1_0_0_1_n_n.rhsIdx_val_of_single rfl i q
theorem valDot_rhs1 (i : S1024x1024.Idx) (q : dot_S1024x100_S100x1024_S1024x1024_1_0_0_1_n_n.contr.Idx) : (dot_S1024x100_S100x1024_S1024x1024_1_0_0_1_n_n.rhsIdx i q 1).val = (i 1).val := by
  unfold DotDims.rhsIdx
  rw [dif_neg (show ¬(1 : Fin S100x1024.rank) ∈ dot_S1024x100_S100x1024_S1024x1024_1_0_0_1_n_n.rhsBatch by decide), dif_pos (show (1 : Fin S100x1024.rank) ∈ dot_S1024x100_S100x1024_S1024x1024_1_0_0_1_n_n.rhsNonContracting by decide)]
  rfl
theorem valDot_apply {φ₁ φ₂ : FTy} (l : FVec Ideal S1024x100 φ₁) (r : FVec Ideal S100x1024 φ₂) (p : Fin 1024) (c : Fin 1024) :
    matmul dot_S1024x100_S100x1024_S1024x1024_1_0_0_1_n_n none l r (constant (F := Ideal) S1024x1024 .f32 0x00000000#32) (ix2 p c)
      = ∑ k : Fin 100, l (ix2 p k) * r (ix2 k c) := by
  simp only [matmul]
  rw [Ideal.matmul_constant_zero_apply, ← Equiv.sum_comp (contrEquiv1 dot_S1024x100_S100x1024_S1024x1024_1_0_0_1_n_n 100 rfl rfl).symm]
  refine Finset.sum_congr rfl fun k _ => ?_
  have hk := contrEquiv1_symm_val dot_S1024x100_S100x1024_S1024x1024_1_0_0_1_n_n 100 rfl rfl k
  have el : dot_S1024x100_S100x1024_S1024x1024_1_0_0_1_n_n.lhsIdx (ix2 p c) ((contrEquiv1 dot_S1024x100_S100x1024_S1024x1024_1_0_0_1_n_n 100 rfl rfl).symm k) = ix2 p k := funext fun a => Fin.ext (by
    match a with
    | ⟨0, _⟩ => exact valDot_lhs0 _ _
    | ⟨1, _⟩ => exact (valDot_lhs1 _ _).trans hk)
  have er : dot_S1024x100_S100x1024_S1024x1024_1_0_0_1_n_n.rhsIdx (ix2 p c) ((contrEquiv1 dot_S1024x100_S100x1024_S1024x1024_1_0_0_1_n_n 100 rfl rfl).symm k) = ix2 k c := funext fun a => Fin.ext (by
    match a with
    | ⟨0, _⟩ => exact (valDot_rhs0 _ _).trans hk
    | ⟨1, _⟩ => exact valDot_rhs1 _ _)
  rw [el, er]

/-! ## A row's maximum and a row's sum, broadcast back along the row -/

/-- The maximum over a row of a [1024,100] block, put back as a column and broadcast over the row's lanes, reads at
    `(r, j)` the maximum of row `r` folded from −∞. -/
theorem rowMaxBroadcast_apply (S : FVec Ideal S1024x100 .f32) (r : Fin 1024) (j : Fin 100) :
    broadcastTo S1024x100 (shapeCast S1024x1 (multiReduction .maximumf [1] S1024 S 0xFF800000#32 reduces_S1024x100_S1024 (.inl rfl) rfl)
        shapeCasts_S1024_S1024x1) broadcasts_S1024x1_S1024x100 (ix2 r j)
      = Cert.MemAttn.rowMax (fun l => S (ix2 r l)) := by
  refine (broadcastTo_a1_ab_apply _ broadcasts_S1024x1_S1024x100 r j).trans ?_
  refine (shapeCast_a_a1_apply _ shapeCasts_S1024_S1024x1 r (0 : Fin 1)).trans ?_
  refine (Ideal.multiReduction_maximumf_single S 0xFF800000#32 reduces_S1024x100_S1024 (.inl rfl) rfl (ix1 r)).trans ?_
  exact congrArg (fun f : Fin 100 → EReal => (Finset.univ : Finset (Fin 100)).fold max (Ideal.ofBits .f32 0xFF800000#32 : EReal) f)
    (funext fun k => congrArg S (lift2_last reduces_S1024x100_S1024 r k))

/-- The sum over a row, put back as a column and broadcast over the row's lanes, reads at `(r, j)` the sum of row `r`. -/
theorem rowSumBroadcast_apply (E : FVec Ideal S1024x100 .f32) (r : Fin 1024) (j : Fin 100) :
    broadcastTo S1024x100 (shapeCast S1024x1 (multiReduction .add [1] S1024 E 0x00000000#32 reduces_S1024x100_S1024 (.inl rfl) rfl)
        shapeCasts_S1024_S1024x1) broadcasts_S1024x1_S1024x100 (ix2 r j)
      = ∑ l : Fin 100, E (ix2 r l) := by
  refine (broadcastTo_a1_ab_apply _ broadcasts_S1024x1_S1024x100 r j).trans ?_
  refine (shapeCast_a_a1_apply _ shapeCasts_S1024_S1024x1 r (0 : Fin 1)).trans ?_
  refine (Ideal.multiReduction_add_single E 0x00000000#32 reduces_S1024x100_S1024 (.inl rfl) rfl (ix1 r)).trans ?_
  exact Finset.sum_congr rfl fun k _ => congrArg E (lift2_last reduces_S1024x100_S1024 r k)

/-! ## The body's value in three named stages -/

/-- The scores of a block of 1024 rows: queries times transposed keys, plus one half of contexts times transposed
    slot contexts, plus the bias row broadcast over the rows. -/
def scoresBlock (x0 : FVec Ideal S1024x1024 .f32) (x2 : FVec Ideal S1024x100 .bf16) (x5 : FVec Ideal S1024x16 .f32)
    (x7 : FVec Ideal S16x100 .bf16) (x13 : FVec Ideal S1x100 .f32) : FVec Ideal S1024x100 .f32 :=
  addf (addf
      (matmul dot_S1024x1024_S1024x100_S1024x100_1_0_0_1_n_n none (truncf .bf16 x0 bitsLt_bf16_f32)
        (shapeCast S1024x100 x2 shapeCasts_S1024x100_S1024x100) (constant (F := Ideal) S1024x100 .f32 0x00000000#32))
      (mulf (broadcast S1024x100 (Scalar.ofBits (F := Ideal) .f32 0x3F000000#32))
        (matmul dot_S1024x16_S16x100_S1024x100_1_0_0_1_n_n none (truncf .bf16 x5 bitsLt_bf16_f32)
          (shapeCast S16x100 x7 shapeCasts_S16x100_S16x100) (constant (F := Ideal) S1024x100 .f32 0x00000000#32))))
    (broadcastTo S1024x100 (shapeCast S1x100 x13 shapeCasts_S1x100_S1x100) broadcasts_S1x100_S1024x100)

/-- The exponentials of a block of scores after each row's maximum is subtracted. -/
def shiftedBlock (S : FVec Ideal S1024x100 .f32) : FVec Ideal S1024x100 .f32 :=
  exp (subf S (broadcastTo S1024x100 (shapeCast S1024x1 (multiReduction .maximumf [1] S1024 S 0xFF800000#32 reduces_S1024x100_S1024 (.inl rfl) rfl)
    shapeCasts_S1024_S1024x1) broadcasts_S1024x1_S1024x100))

/-- Each row of exponentials divided by the row's sum. -/
def weightsBlock (E : FVec Ideal S1024x100 .f32) : FVec Ideal S1024x100 .f32 :=
  divf E (broadcastTo S1024x100 (shapeCast S1024x1 (multiReduction .add [1] S1024 E 0x00000000#32 reduces_S1024x100_S1024 (.inl rfl) rfl)
    shapeCasts_S1024_S1024x1) broadcasts_S1024x1_S1024x100)

/-- The body's stored value is the last product over those stages. -/
theorem payload_stages (x0 : FVec Ideal S1024x1024 .f32) (x2 : FVec Ideal S1024x100 .bf16) (x5 : FVec Ideal S1024x16 .f32)
    (x7 : FVec Ideal S16x100 .bf16) (x13 : FVec Ideal S1x100 .f32) (x26 : FVec Ideal S100x1024 .bf16) :
    k0_pay1 (F := Ideal) x0 x2 x5 x7 x13 x26
      = matmul dot_S1024x100_S100x1024_S1024x1024_1_0_0_1_n_n none
          (truncf .bf16 (weightsBlock (shiftedBlock (scoresBlock x0 x2 x5 x7 x13))) bitsLt_bf16_f32)
          (shapeCast S100x1024 x26 shapeCasts_S100x1024_S100x1024) (constant (F := Ideal) S1024x1024 .f32 0x00000000#32) := rfl

/-- A block's score at `(r, j)` is the row's score against slot `j`. -/
theorem scoresBlock_apply (x0 : FVec Ideal S1024x1024 .f32) (x2 : FVec Ideal S1024x100 .bf16) (x5 : FVec Ideal S1024x16 .f32)
    (x7 : FVec Ideal S16x100 .bf16) (x13 : FVec Ideal S1x100 .f32) (r : Fin 1024) (j : Fin 100) :
    scoresBlock x0 x2 x5 x7 x13 (ix2 r j)
      = Cert.MemAttn.score (fun k => x0 (ix2 r k)) (fun k => x5 (ix2 r k)) (fun j k => x2 (ix2 k j)) (fun j k => x7 (ix2 k j))
          (fun j => x13 (ix2 (0 : Fin 1) j)) j := by
  unfold scoresBlock Cert.MemAttn.score
  rw [addf_apply, addf_apply, mulf_apply, keyDot_apply, ctxDot_apply, broadcastTo_1b_ab_apply, shapeCast_self, shapeCast_self, shapeCast_self]
  rfl

/-- A block's shifted exponential at `(r, j)` is the row's. -/
theorem shiftedBlock_apply (S : FVec Ideal S1024x100 .f32) (r : Fin 1024) (j : Fin 100) :
    shiftedBlock S (ix2 r j) = Cert.MemAttn.shifted (fun l => S (ix2 r l)) j := by
  unfold shiftedBlock Cert.MemAttn.shifted
  show Ideal.exp (S (ix2 r j) - _) = _
  rw [rowMaxBroadcast_apply]

/-- A block's weight at `(r, j)` is the row's softmax weight. -/
theorem weightsBlock_apply (S : FVec Ideal S1024x100 .f32) (r : Fin 1024) (j : Fin 100) :
    weightsBlock (shiftedBlock S) (ix2 r j) = Cert.MemAttn.weight (fun l => S (ix2 r l)) j := by
  unfold weightsBlock Cert.MemAttn.weight
  show Ideal.div (shiftedBlock S (ix2 r j)) _ = _
  rw [rowSumBroadcast_apply, shiftedBlock_apply]
  exact congrArg (Ideal.div _) (Finset.sum_congr rfl fun l _ => shiftedBlock_apply S r l)

/-! ## The body's value at an entry -/

/-- Entry `(r, d)` of what the body stores is row `r`'s attention output at column `d`, computed from row `r` of the
    query and context blocks, the transposed key and slot-context tables, the value table and the bias row. -/
theorem payload_apply (x0 : FVec Ideal S1024x1024 .f32) (x2 : FVec Ideal S1024x100 .bf16) (x5 : FVec Ideal S1024x16 .f32)
    (x7 : FVec Ideal S16x100 .bf16) (x13 : FVec Ideal S1x100 .f32) (x26 : FVec Ideal S100x1024 .bf16) (r d : Fin 1024) :
    k0_pay1 (F := Ideal) x0 x2 x5 x7 x13 x26 (ix2 r d)
      = Cert.MemAttn.attendWith (fun k => x0 (ix2 r k)) (fun k => x5 (ix2 r k)) (fun j k => x2 (ix2 k j)) (fun j k => x26 (ix2 j k))
          (fun j k => x7 (ix2 k j)) (fun j => x13 (ix2 (0 : Fin 1) j)) d := by
  rw [payload_stages]
  unfold Cert.MemAttn.attendWith Cert.MemAttn.mix
  refine (valDot_apply _ _ r d).trans ?_
  refine Finset.sum_congr rfl fun j _ => ?_
  rw [shapeCast_self]
  show weightsBlock (shiftedBlock (scoresBlock x0 x2 x5 x7 x13)) (ix2 r j) * _ = _
  rw [weightsBlock_apply]
  exact congrArg (fun s => Cert.MemAttn.weight s j * x26 (ix2 j d)) (funext fun l => scoresBlock_apply x0 x2 x5 x7 x13 r l)

end Cert.KernelIdeal.Hand

end
-- ==== Proof.HostPrefix.lean ====
/-
  What the four small arrays the region reads hold when the region is entered.

  Before the region the program prepares, from the launched memory tables: the key table transposed (1024 × 100), the
  context table transposed (16 × 100), the value table unchanged (100 × 1024), and one row (1 × 100) of time-decay
  biases `exp (w · (0 − ts j))` computed from the timestamp column.  The changes of number format on the way are the
  identity on the extended reals.  Each theorem reads one of these arrays at an index given by its two coordinates.
-/
import proofs.«145334_j27797028339950_2_alg».proof.Proof.Gen.KernelIdeal.Frame
import proofs.«145334_j27797028339950_2_alg».proof.Proof.Spec
import Idealize.ShloMosaic.Lib.ValueLayout
import Idealize.ShloMosaic.Lib.StableHlo.Run
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.StableHlo

namespace Cert.KernelIdeal.Hand

open Cert.KernelIdeal Cert.KernelIdeal.Gen

variable (m : (ℓ : Loc nD τ sig) → Buf (Elt Ideal) ℓ)

/-- The transposed key table the region reads: entry `(k, j)` is the launched key table's entry `(j, k)`
    (a transpose, then a change of format that is the identity on the extended reals). -/
theorem keysT_apply (c : Dev nD) (k : Fin 1024) (j : Fin 100) :
    (V m c main_v1 : S1024x100.Idx → EReal) (ix2 k j) = (m ((c : Thread nD τ).loc main_arg2) : S100x1024.Idx → EReal) (ix2 j k) := by
  have e : (V m c main_v1 : S1024x100.Idx → EReal)
      = (truncf (F := Ideal) .bf16 (transpose S1024x100 [1, 0] (m ((c : Thread nD τ).loc main_arg2) : S100x1024.Idx → EReal) transposes_S100x1024_S1024x100_1_0 : FVec Ideal S1024x100 .f32) bitsLt_bf16_f32 : S1024x100.Idx → EReal) := by
    dsimp only [Gen.V, Gen.hostOps0]; after_results
  rw [e]
  exact transpose_ix2_apply _ _ k j

/-- The transposed context table the region reads: entry `(k, j)` is the launched context table's entry `(j, k)`. -/
theorem ctxT_apply (c : Dev nD) (k : Fin 16) (j : Fin 100) :
    (V m c main_v3 : S16x100.Idx → EReal) (ix2 k j) = (m ((c : Thread nD τ).loc main_arg4) : S100x16.Idx → EReal) (ix2 j k) := by
  have e : (V m c main_v3 : S16x100.Idx → EReal)
      = (truncf (F := Ideal) .bf16 (transpose S16x100 [1, 0] (m ((c : Thread nD τ).loc main_arg4) : S100x16.Idx → EReal) transposes_S100x16_S16x100_1_0 : FVec Ideal S16x100 .f32) bitsLt_bf16_f32 : S16x100.Idx → EReal) := by
    dsimp only [Gen.V, Gen.hostOps0]; after_results
  rw [e]
  exact transpose_ix2_apply _ _ k j

/-- The value table the region reads is the launched value table, entry by entry (only its format changes, and
    that is the identity on the extended reals). -/
theorem values_apply (c : Dev nD) (j : Fin 100) (d : Fin 1024) :
    (V m c main_v4 : S100x1024.Idx → EReal) (ix2 j d) = (m ((c : Thread nD τ).loc main_arg3) : S100x1024.Idx → EReal) (ix2 j d) := by
  have e : (V m c main_v4 : S100x1024.Idx → EReal)
      = (truncf (F := Ideal) .bf16 (m ((c : Thread nD τ).loc main_arg3) : FVec Ideal S100x1024 .f32) bitsLt_bf16_f32 : S100x1024.Idx → EReal) := by
    dsimp only [Gen.V, Gen.hostOps0]; after_results
  rw [e]
  rfl

/-- The bias row the region reads: at `(u, j)`, whatever the unit coordinate `u`, it is slot `j`'s time-decay bias
    `exp (w · (0 − ts j))`, the timestamps `ts` being the single column of the launched timestamp table. -/
theorem bias_apply (c : Dev nD) (u : Fin 1) (j : Fin 100) :
    (V m c main_v11 : S1x100.Idx → EReal) (ix2 u j)
      = Cert.MemAttn.decay (fun j => (m ((c : Thread nD τ).loc main_arg5) : S100x1.Idx → EReal) (ix2 j (0 : Fin 1))) j := by
  have e : (V m c main_v11 : S1x100.Idx → EReal)
      = (shapeCast S1x100
          (Host.exp (F := Ideal)
            (mulf (broadcastInDim S100 ![] bcast_S_S100 (constant (F := Ideal) S_ .f32 0xBDCCCCCD#32) : FVec Ideal S100 .f32)
              (subf (broadcastInDim S100 ![] bcast_S_S100 (constant (F := Ideal) S_ .f32 0x00000000#32) : FVec Ideal S100 .f32)
                (shapeCast S100 (m ((c : Thread nD τ).loc main_arg5) : S100x1.Idx → EReal) shapeCasts_S100x1_S100 : FVec Ideal S100 .f32)
                : FVec Ideal S100 .f32) : FVec Ideal S100 .f32) : FVec Ideal S100 .f32)
          shapeCasts_S100_S1x100 : S1x100.Idx → EReal) := by
    dsimp only [Gen.V, Gen.hostOps0]; after_results; rfl
  rw [e]
  refine (shapeCast_a_1a_apply _ _ u j).trans ?_
  -- a rank-0 constant broadcast along the row is the constant at every entry
  have hb : ∀ b : BitVec 32,
      (broadcastInDim S100 ![] bcast_S_S100 (constant (F := Ideal) S_ .f32 b) : S100.Idx → EReal) (ix1 j) = Ideal.ofBits .f32 b :=
    fun b => broadcastInDim_apply _ bcast_S_S100 _ (ix1 j) (fun a => a.elim0) (fun a => a.elim0)
  -- the timestamp column read as a row: position `j` of the row is entry `(j, 0)` of the column
  have hs : (shapeCast S100 (m ((c : Thread nD τ).loc main_arg5) : S100x1.Idx → EReal) shapeCasts_S100x1_S100 : S100.Idx → EReal) (ix1 j)
      = (m ((c : Thread nD τ).loc main_arg5) : S100x1.Idx → EReal) (ix2 j (0 : Fin 1)) :=
    shapeCast_apply _ shapeCasts_S100x1_S100 (ix1 j) (ix2 j (0 : Fin 1)) (by
      rw [Shape.rowMajor_val_two, Shape.rowMajor_val_one]
      show j.val * 1 + 0 = j.val
      omega)
  show Ideal.exp (_ * (_ - _)) = _
  rw [hb, hb, hs]
  rfl

end Cert.KernelIdeal.Hand

end
-- ==== Proof.Blocks.lean ====
/-
  From the blocks to the whole result array.

  The grid has 128 points; point `t` loads rows `1024 t … 1024 t + 1023` of the query and context arrays and the
  whole of the four small tables, and writes back rows `1024 t … 1024 t + 1023` of the result.  Since a result row
  depends only on the same row of the query and of the context (and on the tables), what point `t` writes back is
  block `t` of ONE array, the specification's; the 128 blocks cover the array, so after the run the result array is
  the specification's.
-/
import proofs.«145334_j27797028339950_2_alg».proof.Proof.Gen.KernelIdeal.Value
import proofs.«145334_j27797028339950_2_alg».proof.Proof.Spec
import proofs.«145334_j27797028339950_2_alg».proof.Proof.Payload
import proofs.«145334_j27797028339950_2_alg».proof.Proof.HostPrefix
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

/-- The zero offsets of a whole-block access, however they are spelt. -/
theorem hz : (![0, 0] : Fin 2 → Nat) = fun _ => 0 := funext fun a => by fin_cases a <;> rfl

/-- The result array the specification assigns to the launch memory of core `c`. -/
abbrev spec (c : Dev nD) : S131072x1024.Idx → EReal :=
  Cert.MemAttn.resultArray (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The specification's array at an index given by its coordinates. -/
theorem spec_apply (c : Dev nD) (b : Fin 131072) (d : Fin 1024) :
    spec m c (ix2 b d) = Cert.MemAttn.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) b d := rfl

/-- The printed index maps, decided over the 128 grid points: the query, context and output windows move one block of
    1024 rows per point, and the four table windows stay on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as entries of the arrays the region finds -/

/-- Row `r` of the query block at point `t` is row `1024 t + r` of the query array. -/
theorem queryBlock_apply (c : Dev nD) (t : Fin cfg0.N) (r k : Fin 1024) (b : Fin 131072) (hb : b.val = t.val * 1024 + r.val) :
    (iblk m c 0 t : S1024x1024.Idx → EReal) (ix2 r k) = (m ((c : Thread nD τ).loc main_arg0) : S131072x1024.Idx → EReal) (ix2 b k) := by
  obtain ⟨e0, e1, -⟩ := idx_facts t
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t (0 : Fin 2) * 1024 + 1 * r.val = b.val; omega
  | ⟨1, _⟩ => show win0_0.index t (1 : Fin 2) * 1024 + 1 * k.val = k.val; omega

/-- Row `r` of the context block at point `t` is row `1024 t + r` of the context array. -/
theorem contextBlock_apply (c : Dev nD) (t : Fin cfg0.N) (r : Fin 1024) (k : Fin 16) (b : Fin 131072) (hb : b.val = t.val * 1024 + r.val) :
    (iblk m c 1 t : S1024x16.Idx → EReal) (ix2 r k) = (m ((c : Thread nD τ).loc main_arg1) : S131072x16.Idx → EReal) (ix2 b k) := by
  obtain ⟨-, -, e0, e1, -⟩ := idx_facts t
  unfold iblk
  rw [View.read_apply]
  show V m c main_arg1 _ = m ((c : Thread nD τ).loc main_arg1) _
  rw [V_main_arg1]
  refine congrArg _ (funext fun a => Fin.ext ?_)
  match a with
  | ⟨0, _⟩ => show win0_1.index t (0 : Fin 2) * 1024 + 1 * r.val = b.val; omega
  | ⟨1, _⟩ => show win0_1.index t (1 : Fin 2) * 16 + 1 * k.val = k.val; omega

/-- The transposed key table's one block is the table: entry `(k, j)` is the key array at `(j, k)`. -/
theorem keysBlock_apply (c : Dev nD) (t : Fin cfg0.N) (k : Fin 1024) (j : Fin 100) :
    (iblk m c 2 t : S1024x100.Idx → EReal) (ix2 k j) = (m ((c : Thread nD τ).loc main_arg2) : S100x1024.Idx → EReal) (ix2 j k) := by
  obtain ⟨-, -, -, -, e0, e1, -⟩ := idx_facts t
  refine Eq.trans ?_ (keysT_apply m c k j)
  unfold iblk
  rw [View.read_apply]
  show V m c main_v1 _ = V m c main_v1 _
  refine congrArg _ (funext fun a => Fin.ext ?_)
  match a with
  | ⟨0, _⟩ => show win0_2.index t (0 : Fin 2) * 1024 + 1 * k.val = k.val; omega
  | ⟨1, _⟩ => show win0_2.index t (1 : Fin 2) * 100 + 1 * j.val = j.val; omega

/-- The value table's one block is the value array. -/
theorem valuesBlock_apply (c : Dev nD) (t : Fin cfg0.N) (j : Fin 100) (d : Fin 1024) :
    (iblk m c 3 t : S100x1024.Idx → EReal) (ix2 j d) = (m ((c : Thread nD τ).loc main_arg3) : S100x1024.Idx → EReal) (ix2 j d) := by
  obtain ⟨-, -, -, -, -, -, e0, e1, -⟩ := idx_facts t
  refine Eq.trans ?_ (values_apply m c j d)
  unfold iblk
  rw [View.read_apply]
  show V m c main_v4 _ = V m c main_v4 _
  refine congrArg _ (funext fun a => Fin.ext ?_)
  match a with
  | ⟨0, _⟩ => show win0_3.index t (0 : Fin 2) * 100 + 1 * j.val = j.val; omega
  | ⟨1, _⟩ => show win0_3.index t (1 : Fin 2) * 1024 + 1 * d.val = d.val; omega

/-- The transposed slot-context table's one block: entry `(k, j)` is the slot-context array at `(j, k)`. -/
theorem slotContextsBlock_apply (c : Dev nD) (t : Fin cfg0.N) (k : Fin 16) (j : Fin 100) :
    (iblk m c 4 t : S16x100.Idx → EReal) (ix2 k j) = (m ((c : Thread nD τ).loc main_arg4) : S100x16.Idx → EReal) (ix2 j k) := by
  obtain ⟨-, -, -, -, -, -, -, -, e0, e1, -⟩ := idx_facts t
  refine Eq.trans ?_ (ctxT_apply m c k j)
  unfold iblk
  rw [View.read_apply]
  show V m c main_v3 _ = V m c main_v3 _
  refine congrArg _ (funext fun a => Fin.ext ?_)
  match a with
  | ⟨0, _⟩ => show win0_4.index t (0 : Fin 2) * 16 + 1 * k.val = k.val; omega
  | ⟨1, _⟩ => show win0_4.index t (1 : Fin 2) * 100 + 1 * j.val = j.val; omega

/-- The bias row's one block: entry `j` is the time-decay bias of slot `j`, from the timestamps. -/
theorem biasBlock_apply (c : Dev nD) (t : Fin cfg0.N) (j : Fin 100) :
    (iblk m c 5 t : S1x100.Idx → EReal) (ix2 (0 : Fin 1) j)
      = Cert.MemAttn.decay (fun j => (m ((c : Thread nD τ).loc main_arg5) : S100x1.Idx → EReal) (ix2 j (0 : Fin 1))) j := by
  obtain ⟨-, -, -, -, -, -, -, -, -, -, e0, e1, -⟩ := idx_facts t
  refine Eq.trans ?_ (bias_apply m c (0 : Fin 1) j)
  unfold iblk
  rw [View.read_apply]
  show V m c main_v11 _ = V m c main_v11 _
  refine congrArg _ (funext fun a => Fin.ext ?_)
  match a with
  | ⟨0, _⟩ => show win0_5.index t (0 : Fin 2) * 1 + 1 * 0 = 0; omega
  | ⟨1, _⟩ => show win0_5.index t (1 : Fin 2) * 100 + 1 * j.val = j.val; omega

/-! ## What a point writes back, the cover, the array after the run -/

/-- Point `t` writes back block `t` of the specification's result array. -/
theorem flushed_eq (c : Dev nD) (t : Fin cfg0.N) :
    (dats m 0 c).flushed 6 t = ((cfg0.win 6).blk t).view.read (Elt Ideal) (spec m c) := by
  rw [flushed6]
  unfold out0_6
  rw [View.canon_unit_zero hz]
  simp only [View.ld_unit_zero (S := S1024x1024) hz, View.ld_unit_zero (S := S1024x100) hz, View.ld_unit_zero (S := S1024x16) hz,
    View.ld_unit_zero (S := S16x100) hz, View.ld_unit_zero (S := S1x100) hz, View.ld_unit_zero (S := S100x1024) hz]
  have hN : cfg0.N = 128 := N_0
  have ht : t.val < 128 := hN ▸ t.isLt
  obtain ⟨-, -, -, -, -, -, -, -, -, -, -, -, e0, e1⟩ := idx_facts t
  funext y
  obtain ⟨r, d, rfl⟩ : ∃ (r : Fin 1024) (d : Fin 1024), y = ix2 r d := ⟨y 0, y 1, eq_ix2 y⟩
  have hb : t.val * 1024 + r.val < 131072 := by have := r.isLt; omega
  have hi : ((cfg0.win 6).blk t).view.emb (ix2 r d) = (ix2 (⟨t.val * 1024 + r.val, hb⟩ : Fin 131072) d : S131072x1024.Idx) :=
    funext fun a => Fin.ext (by
      match a with
      | ⟨0, _⟩ => show win0_6.index t (0 : Fin 2) * 1024 + 1 * r.val = t.val * 1024 + r.val; omega
      | ⟨1, _⟩ => show win0_6.index t (1 : Fin 2) * 1024 + 1 * d.val = d.val; omega)
  show k0_pay1 (F := Ideal) (iblk m c 0 t) (iblk m c 2 t) (iblk m c 1 t) (iblk m c 4 t) (iblk m c 5 t) (iblk m c 3 t) (ix2 r d)
    = spec m c (((cfg0.win 6).blk t).view.emb (ix2 r d))
  rw [hi]
  refine (payload_apply (iblk m c 0 t) (iblk m c 2 t) (iblk m c 1 t) (iblk m c 4 t) (iblk m c 5 t) (iblk m c 3 t) r d).trans ?_
  rw [spec_apply]
  unfold Cert.MemAttn.result
  have q0 := funext fun k => queryBlock_apply m c t r k ⟨t.val * 1024 + r.val, hb⟩ rfl
  have q1 := funext fun k => contextBlock_apply m c t r k ⟨t.val * 1024 + r.val, hb⟩ rfl
  have q2 := funext fun j => funext fun k => keysBlock_apply m c t k j
  have q3 := funext fun j => funext fun k => valuesBlock_apply m c t j k
  have q4 := funext fun j => funext fun k => slotContextsBlock_apply m c t k j
  have q5 := funext fun j => biasBlock_apply m c t j
  rw [q0, q1, q2, q3, q4, q5]

/-- An index of the result array is in point `t`'s block iff each coordinate is in the block's range on its axis. -/
theorem mem_blk (t : Fin cfg0.N) (i : S131072x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v12).slice (win0_6.rect t)).set ↔ _
  rw [View.set_slice_whole, Rect.mem_set_unit]
  exact Iff.rfl

/-- Every index of the result array lies in the block of the point its row belongs to. -/
theorem cover (i : S131072x1024.Idx) : ∃ t : Fin cfg0.N, (cfg0.win 6).flush t = true ∧ i ∈ ((cfg0.win 6).blk t).view.set := by
  have hN : cfg0.N = 128 := N_0
  have hi0 : (i 0).val < 131072 := (i 0).isLt
  have hi1 : (i 1).val < 1024 := (i 1).isLt
  refine ⟨⟨(i 0).val / 1024, by rw [hN]; omega⟩, flush0_6 _, ?_⟩
  rw [mem_blk]
  obtain ⟨-, -, -, -, -, -, -, -, -, -, -, -, e0, e1⟩ := idx_facts ⟨(i 0).val / 1024, by rw [hN]; omega⟩
  intro a
  match a with
  | ⟨0, _⟩ => show win0_6.index _ (0 : Fin 2) * 1024 ≤ (i 0).val ∧ (i 0).val < win0_6.index _ (0 : Fin 2) * 1024 + 1024; rw [e0]; show (i 0).val / 1024 * 1024 ≤ _ ∧ _ < (i 0).val / 1024 * 1024 + 1024; omega
  | ⟨1, _⟩ => show win0_6.index _ (1 : Fin 2) * 1024 ≤ (i 1).val ∧ (i 1).val < win0_6.index _ (1 : Fin 2) * 1024 + 1024; rw [e1]; omega

/-- The result array after the run is the specification's. -/
theorem final (c : Dev nD) : (dats m 0 c).arrAt 6 cfg0.N = spec m c :=
  (dats m 0 c).arrAt_eq_of_cover 6 (spec m c) (fun t _ => flushed_eq m c t) (cover)

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v12) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Hand

end
-- ==== Proof.RefIsSpec.lean ====
/-
  The reference computation, read entry by entry, is the specification.

  Row `b` of the reference's score array is the specification's score of query row `b` against every slot; the
  maximum it folds along a row (and then compares once more with the fold's starting value, which changes nothing) is
  the row's maximum; the exponentials of the shifted scores, their row sum (started from zero) and the quotient are the
  softmax weights; and the final contraction with the value table is the weighted sum of the slots' values.
-/
import proofs.«145334_j27797028339950_2_alg».proof.Proof.Gen.ReferenceIdeal.Read
import proofs.«145334_j27797028339950_2_alg».proof.Proof.Spec
import proofs.«145334_j27797028339950_2_alg».proof.Proof.LibHostMaxForms

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

/-! ## The index functions of the contractions, sums and broadcasts, at an index given by its coordinates -/

theorem lidx0 (b : Fin 131072) (j : Fin 100) (k : Fin 1024) : Read.lidx_main_v0 (ix2 b j) k = ix2 b k :=
  funext fun a => Fin.ext (by match a with | ⟨0, _⟩ => rfl | ⟨1, _⟩ => rfl)

theorem ridx0 (b : Fin 131072) (j : Fin 100) (k : Fin 1024) : Read.ridx_main_v0 (ix2 b j) k = ix2 j k :=
  funext fun a => Fin.ext (by match a with | ⟨0, _⟩ => rfl | ⟨1, _⟩ => rfl)

theorem lidx1 (b : Fin 131072) (j : Fin 100) (k : Fin 16) : Read.lidx_main_v1 (ix2 b j) k = ix2 b k :=
  funext fun a => Fin.ext (by match a with | ⟨0, _⟩ => rfl | ⟨1, _⟩ => rfl)

theorem ridx1 (b : Fin 131072) (j : Fin 100) (k : Fin 16) : Read.ridx_main_v1 (ix2 b j) k = ix2 j k :=
  funext fun a => Fin.ext (by match a with | ⟨0, _⟩ => rfl | ⟨1, _⟩ => rfl)

/-- The bias of entry `(b, j)` is read from timestamp `(j, 0)`. -/
theorem idxTs (b : Fin 131072) (j : Fin 100) :
    Read.idx_main_v5 (Read.idx_main_v11 (Read.idx_main_v12 (ix2 b j))) = ix2 j (0 : Fin 1) :=
  funext fun a => Fin.ext (by
    match a with
    | ⟨0, _⟩ => exact Nat.div_one _
    | ⟨1, _⟩ => rfl)

/-- The row statistics of entry `(b, j)` are read at row `b`. -/
theorem idxRow18 (b : Fin 131072) (j : Fin 100) : Read.idx_main_v17 (Read.idx_main_v18 (ix2 b j)) = ix1 b :=
  funext fun a => Fin.ext (by match a with | ⟨0, _⟩ => rfl)

theorem idxSum (b : Fin 131072) (j l : Fin 100) :
    Read.idx_main_v21 (Read.idx_main_v22 (Read.idx_main_v23 (ix2 b j))) l = ix2 b l :=
  funext fun a => Fin.ext (by match a with | ⟨0, _⟩ => rfl | ⟨1, _⟩ => rfl)

theorem lidx25 (b : Fin 131072) (d : Fin 1024) (k : Fin 100) : Read.lidx_main_v25 (ix2 b d) k = ix2 b k :=
  funext fun a => Fin.ext (by match a with | ⟨0, _⟩ => rfl | ⟨1, _⟩ => rfl)

theorem ridx25 (b : Fin 131072) (d : Fin 1024) (k : Fin 100) : Read.ridx_main_v25 (ix2 b d) k = ix2 k d :=
  funext fun a => Fin.ext (by match a with | ⟨0, _⟩ => rfl | ⟨1, _⟩ => rfl)

section
variable (x0 : (⟨S131072x1024, .f32⟩ : BufTy).Contents (Elt Ideal)) (x1 : (⟨S131072x16, .f32⟩ : BufTy).Contents (Elt Ideal))
  (x2 x3 : (⟨S100x1024, .f32⟩ : BufTy).Contents (Elt Ideal)) (x4 : (⟨S100x16, .f32⟩ : BufTy).Contents (Elt Ideal))
  (x5 : (⟨S100x1, .f32⟩ : BufTy).Contents (Elt Ideal))

/-! ## The scores -/

/-- Entry `(b, j)` of the reference's score array is the specification's score of row `b` against slot `j`. -/
theorem score_eq (b : Fin 131072) (j : Fin 100) :
    Read.val_main_v13 (F := Ideal) x0 x1 x2 x4 x5 (ix2 b j)
      = Cert.MemAttn.score (fun k => x0 (ix2 b k)) (fun k => x1 (ix2 b k)) (fun j k => x2 (ix2 j k))
          (fun j k => x4 (ix2 j k)) (Cert.MemAttn.decay fun j => x5 (ix2 j (0 : Fin 1))) j := by
  rw [Read.val_main_v13_apply, Read.val_main_v4_apply, Read.val_main_v3_apply, Read.val_main_v2_apply,
    Read.val_main_cst_apply, Read.val_main_v0_apply, Read.val_main_v1_apply, Read.val_main_v12_apply,
    Read.val_main_v11_apply, Read.val_main_v10_apply, Read.val_main_v9_apply, Read.val_main_v8_apply,
    Read.val_main_cst_1_apply, Read.val_main_v7_apply, Read.val_main_v6_apply, Read.val_main_cst_0_apply,
    Read.val_main_v5_apply, idxTs]
  simp only [lidx0, ridx0, lidx1, ridx1]
  rfl

/-! ## The softmax along a row -/

/-- The reference's row maximum, after its extra comparison with the fold's starting value, is the row's maximum. -/
theorem v16_eq (b : Fin 131072) :
    Read.val_main_v16 (F := Ideal) x0 x1 x2 x4 x5 (ix1 b)
      = Cert.MemAttn.rowMax fun l => Read.val_main_v13 (F := Ideal) x0 x1 x2 x4 x5 (ix2 b l) := by
  rw [Read.val_main_v16_apply, Read.val_main_v15_apply, Read.val_main_cst_3_apply]
  unfold Read.val_main_v14
  rw [hostReduceMax2_last (Read.val_main_v13 (F := Ideal) x0 x1 x2 x4 x5) (Read.val_main_cst_2 (F := Ideal))
    reducesTo_S131072x100_S131072_d1 (by decide) h_S_ b, Read.val_main_cst_2_apply]
  exact Cert.MemAttn.max_fold_self _ _ _

theorem v18_eq (b : Fin 131072) (j : Fin 100) :
    Read.val_main_v18 (F := Ideal) x0 x1 x2 x4 x5 (ix2 b j)
      = Cert.MemAttn.rowMax fun l => Read.val_main_v13 (F := Ideal) x0 x1 x2 x4 x5 (ix2 b l) := by
  rw [Read.val_main_v18_apply, Read.val_main_v17_apply, idxRow18]
  exact v16_eq x0 x1 x2 x4 x5 b

theorem v20_eq (b : Fin 131072) (j : Fin 100) :
    Read.val_main_v20 (F := Ideal) x0 x1 x2 x4 x5 (ix2 b j)
      = Cert.MemAttn.shifted (fun l => Read.val_main_v13 (F := Ideal) x0 x1 x2 x4 x5 (ix2 b l)) j := by
  rw [Read.val_main_v20_apply, Read.val_main_v19_apply, v18_eq]
  rfl

theorem v23_eq (b : Fin 131072) (j : Fin 100) :
    Read.val_main_v23 (F := Ideal) x0 x1 x2 x4 x5 (ix2 b j)
      = ∑ l : Fin 100, Cert.MemAttn.shifted (fun l => Read.val_main_v13 (F := Ideal) x0 x1 x2 x4 x5 (ix2 b l)) l := by
  rw [Read.val_main_v23_apply, Read.val_main_v22_apply, Read.val_main_v21_apply, Read.val_main_cst_4_apply,
    Ideal.ofBits_def, Ideal.ofBits_zero_f32, zero_add]
  refine Finset.sum_congr rfl fun l _ => ?_
  rw [idxSum]
  exact v20_eq x0 x1 x2 x4 x5 b l

/-- Entry `(b, j)` of the reference's weight array is the softmax weight of slot `j` in row `b`'s scores. -/
theorem v24_eq (b : Fin 131072) (j : Fin 100) :
    Read.val_main_v24 (F := Ideal) x0 x1 x2 x4 x5 (ix2 b j)
      = Cert.MemAttn.weight (fun l => Read.val_main_v13 (F := Ideal) x0 x1 x2 x4 x5 (ix2 b l)) j := by
  rw [Read.val_main_v24_apply, v20_eq, v23_eq]
  rfl

/-! ## The result -/

/-- The specification's array at `(b, d)`, written out. -/
theorem resultArray_apply (b : Fin 131072) (d : Fin 1024) :
    Cert.MemAttn.resultArray x0 x1 x2 x3 x4 x5 (ix2 b d)
      = ∑ j : Fin 100, Cert.MemAttn.weight (Cert.MemAttn.score (fun k => x0 (ix2 b k)) (fun k => x1 (ix2 b k))
          (fun j k => x2 (ix2 j k)) (fun j k => x4 (ix2 j k)) (Cert.MemAttn.decay fun j => x5 (ix2 j (0 : Fin 1)))) j
          * x3 (ix2 j d) := rfl

end

/-- The reference's value is the specification's array. -/
theorem reference_eq (x0 : (⟨S131072x1024, .f32⟩ : BufTy).Contents (Elt Ideal)) (x1 : (⟨S131072x16, .f32⟩ : BufTy).Contents (Elt Ideal))
    (x2 x3 : (⟨S100x1024, .f32⟩ : BufTy).Contents (Elt Ideal)) (x4 : (⟨S100x16, .f32⟩ : BufTy).Contents (Elt Ideal))
    (x5 : (⟨S100x1, .f32⟩ : BufTy).Contents (Elt Ideal)) :
    Cert.ReferenceIdeal.Read.val_main_v25 (F := Ideal) x0 x1 x2 x3 x4 x5 = Cert.MemAttn.resultArray x0 x1 x2 x3 x4 x5 := by
  funext i
  obtain ⟨b, d, rfl⟩ : ∃ (b : Fin 131072) (d : Fin 1024), i = ix2 b d := ⟨i 0, i 1, eq_ix2 i⟩
  rw [Read.val_main_v25_apply, resultArray_apply]
  refine Finset.sum_congr rfl fun k _ => ?_
  rw [lidx25, ridx25, v24_eq]
  have hs : (fun l => Read.val_main_v13 (F := Ideal) x0 x1 x2 x4 x5 (ix2 b l))
      = Cert.MemAttn.score (fun k => x0 (ix2 b k)) (fun k => x1 (ix2 b k)) (fun j k => x2 (ix2 j k))
          (fun j k => x4 (ix2 j k)) (Cert.MemAttn.decay fun j => x5 (ix2 j (0 : Fin 1))) :=
    funext fun l => score_eq x0 x1 x2 x4 x5 b l
  rw [hs]

end Cert.ReferenceIdeal.RefValue

end
-- ==== Proof.lean ====
/-
  The kernel and its reference compute the same attention over the memory table.

  Both programs score each query row against the 100 memory slots (the inner product with the slot's key, plus one
  half of the inner product of the row's context with the slot's context, plus the slot's time-decay bias), turn the
  scores of a row into weights by a softmax taken after the row's maximum is subtracted, and return the weighted sum
  of the slots' values.  The kernel does this for 1024 rows at a time, with the key and slot-context tables transposed
  beforehand; the reference does it for all rows at once.  On the extended reals the two are the same expression of
  the inputs, entry by entry: the specification of `Proof/Spec.lean`.  The kernel's side is `Proof/Payload.lean` (the
  body's value at an entry), `Proof/HostPrefix.lean` (the transposed tables and the bias row as entries of the
  inputs) and `Proof/Blocks.lean` (from the blocks to the whole array); the reference's side is `Proof/RefIsSpec.lean`.
  No precondition is used: no step needs finiteness.
-/
import proofs.«145334_j27797028339950_2_alg».proof.Defs
import proofs.«145334_j27797028339950_2_alg».proof.Proof.Gen.Kernel
import proofs.«145334_j27797028339950_2_alg».proof.Proof.Gen.Kernel.Frame
import proofs.«145334_j27797028339950_2_alg».proof.Proof.Gen.KernelIdeal
import proofs.«145334_j27797028339950_2_alg».proof.Proof.Gen.KernelIdeal.Frame
import proofs.«145334_j27797028339950_2_alg».proof.Proof.Gen.KernelIdeal.Value
import proofs.«145334_j27797028339950_2_alg».proof.Proof.Gen.ReferenceIdeal
import proofs.«145334_j27797028339950_2_alg».proof.Proof.Gen.ReferenceIdeal.Run
import proofs.«145334_j27797028339950_2_alg».proof.Proof.Gen.ReferenceIdeal.Read
import proofs.«145334_j27797028339950_2_alg».proof.Proof.Gen.Pre_finite_inputs
import proofs.«145334_j27797028339950_2_alg».proof.Proof.Blocks
import proofs.«145334_j27797028339950_2_alg».proof.Proof.RefIsSpec

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with the specification's array of those
    arguments. -/
theorem algebraic : Cert.algebraic_KernelIdeal_ReferenceIdeal := by
  intro m ρ m' ρ' _ hagree
  refine ⟨fun c => Cert.KernelIdeal.Hand.spec m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.reference_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
